-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x16 : Shape := ⟨3, ![32, 1024, 16]⟩
abbrev S16x16 : Shape := ⟨2, ![16, 16]⟩
abbrev S16 : Shape := ⟨1, ![16]⟩
abbrev S_ : Shape := ⟨0, ![]⟩

class Facts : Prop where
  bcast_S_S32x1024x16 : S_.BroadcastsInDim S32x1024x16 (![] : Fin 0 → Fin S32x1024x16.rank)
  reducesTo_S32x1024x16_S_d0_1_2 : S32x1024x16.ReducesTo [0, 1, 2] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_arg5 : FVec F S16x16 .f32) (main_arg6 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S32x1024x16 .f32) (main_arg1 : FVec F S16x16 .f32) (main_arg2 : FVec F S16 .f32) (main_arg3 : FVec F S16x16 .f32) (main_arg4 : FVec F S16 .f32) (main_arg5 : FVec F S16x16 .f32) (main_arg6 : FVec F S16 .f32) : IVec S_ 1 :=
  let main_v0 : FVec F S32x1024x16 .f32 := Host.absf main_arg0
  let main_cst : FVec F S_ .f32 := constant S_ .f32 0x7F800000#32
  let main_v1 : FVec F S32x1024x16 .f32 := broadcastInDim S32x1024x16 ![] bcast_S_S32x1024x16 main_cst
  let main_v2 : IVec S32x1024x16 1 := cmpf .olt main_v0 main_v1
  let main_c : IVec S_ 1 := constantI S_ 1 1#1
  let main_v3 : IVec S_ 1 := (fun x v => Host.reduce IntOp.andi x v reducesTo_S32x1024x16_S_d0_1_2 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_v13 main_v16
-- ==== Kernel.lean ====
abbrev S32x1024x16 : Shape := ⟨3, ![32, 1024, 16]⟩
abbrev S16x16 : Shape := ⟨2, ![16, 16]⟩
abbrev S16 : Shape := ⟨1, ![16]⟩
abbrev S1x16 : Shape := ⟨2, ![1, 16]⟩
abbrev S1x1024x16 : Shape := ⟨3, ![1, 1024, 16]⟩
abbrev S1024x16 : Shape := ⟨2, ![1024, 16]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 14
  | .vmem => 10
  | .smem => 0
  | _ => 0

abbrev bufTy : (tb : Table) → Fin (tcTables nBuf tb) → BufTy
  | .hbm, ⟨0, _⟩ => ⟨S32x1024x16, .f32⟩
  | .hbm, ⟨1, _⟩ => ⟨S16x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16x16, .f32⟩
  | .hbm, ⟨10, _⟩ => ⟨S1x16, .f32⟩
  | .hbm, ⟨11, _⟩ => ⟨S1x16, .f32⟩
  | .hbm, ⟨12, _⟩ => ⟨S1x16, .f32⟩
  | .hbm, ⟨13, _⟩ => ⟨S32x1024x16, .f32⟩
  | .local _ .vmem, ⟨0, _⟩ => ⟨S1x1024x16, .f32⟩
  | .local _ .vmem, ⟨1, _⟩ => ⟨S1x1024x16, .f32⟩
  | .local _ .vmem, ⟨2, _⟩ => ⟨S16x16, .f32⟩
  | .local _ .vmem, ⟨3, _⟩ => ⟨S1x16, .f32⟩
  | .local _ .vmem, ⟨4, _⟩ => ⟨S16x16, .f32⟩
  | .local _ .vmem, ⟨5, _⟩ => ⟨S1x16, .f32⟩
  | .local _ .vmem, ⟨6, _⟩ => ⟨S16x16, .f32⟩
  | .local _ .vmem, ⟨7, _⟩ => ⟨S1x16, .f32⟩
  | .local _ .vmem, ⟨8, _⟩ => ⟨S1x1024x16, .f32⟩
  | .local _ .vmem, ⟨9, _⟩ => ⟨S1x1024x16, .f32⟩
  | _, _ => ⟨S32x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S16x16_S16x16_1_0 : S16x16.Transposes [1, 0] S16x16
  shapeCasts_S16_S1x16 : S16.ShapeCasts S1x16
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reduces_S1024x1024_S1024 : S1024x1024.Reduces [1] S1024
  shapeCasts_S1024_S1024x1 : S1024.ShapeCasts S1024x1
  broadcasts_S1024x1_S1024x1024 : S1024x1.Broadcasts S1024x1024
  shapeCasts_S1024x16_S1x1024x16 : S1024x16.ShapeCasts S1x1024x16
  dot_S1024x16_S16x16_S1024x16_1_0_0_1_n_n_wf : DotDims.WF S1024x16 S16x16 S1024x16 [1] [0] [0] [1] [] []
  dot_S1024x16_S1024x16_S1024x1024_1_1_0_0_n_n_wf : DotDims.WF S1024x16 S1024x16 S1024x1024 [1] [1] [0] [0] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x16.size a ≤ S32x1024x16.size a
  hwx0_0 : ∀ i : grid0.Coords, EltTy.bits .f32 = 32 ∨ (Rect.block (s := S32x1024x16) S1x1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x16.size a ≤ S32x1024x16.size a
  hwx0_7 : ∀ i : grid0.Coords, EltTy.bits .f32 = 32 ∨ (Rect.block (s := S32x1024x16) S1x1024x16.size (cc0_transform_7 i) (hinb0_7 i)).WholeWords (EltTy.packing .f32)

variable [Facts₀]

def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_arg0) S1x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024x16 : Shape := ⟨3, ![32, 1024, 16]⟩
abbrev S16x16 : Shape := ⟨2, ![16, 16]⟩
abbrev S16 : Shape := ⟨1, ![16]⟩
abbrev S1x1x16 : Shape := ⟨3, ![1, 1, 16]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 36
  | .vmem => 0
  | .smem => 0
  | _ => 0

abbrev bufTy : (tb : Table) → Fin (tcTables nBuf tb) → BufTy
  | .hbm, ⟨0, _⟩ => ⟨S32x1024x16, .f32⟩
  | .hbm, ⟨1, _⟩ => ⟨S16x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S32x1024x16, .f32⟩
  | .hbm, ⟨8, _⟩ => ⟨S1x1x16, .f32⟩
  | .hbm, ⟨9, _⟩ => ⟨S32x1024x16, .f32⟩
  | .hbm, ⟨10, _⟩ => ⟨S32x1024x16, .f32⟩
  | .hbm, ⟨11, _⟩ => ⟨S32x1024x16, .f32⟩
  | .hbm, ⟨12, _⟩ => ⟨S1x1x16, .f32⟩
  | .hbm, ⟨13, _⟩ => ⟨S32x1024x16, .f32⟩
  | .hbm, ⟨14, _⟩ => ⟨S32x1024x16, .f32⟩
  | .hbm, ⟨15, _⟩ => ⟨S32x1024x16, .f32⟩
  | .hbm, ⟨16, _⟩ => ⟨S1x1x16, .f32⟩
  | .hbm, ⟨17, _⟩ => ⟨S32x1024x16, .f32⟩
  | .hbm, ⟨18, _⟩ => ⟨S32x1024x16, .f32⟩
  | .hbm, ⟨19, _⟩ => ⟨S32x1024x1024, .f32⟩
  | .hbm, ⟨20, _⟩ => ⟨S_, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024x1, .f32⟩
  | .hbm, ⟨26, _⟩ => ⟨S32x1024x1024, .f32⟩
  | .hbm, ⟨27, _⟩ => ⟨S32x1024x1024, .f32⟩
  | .hbm, ⟨28, _⟩ => ⟨S32x1024x1024, .f32⟩
  | .hbm, ⟨29, _⟩ => ⟨S_, .f32⟩
  | .hbm, ⟨30, _⟩ => ⟨S32x1024, .f32⟩
  | .hbm, ⟨31, _⟩ => ⟨S32x1024x1, .f32⟩
  | .hbm, ⟨32, _⟩ => ⟨S32x1024x1024, .f32⟩
  | .hbm, ⟨33, _⟩ => ⟨S32x1024x1024, .f32⟩
  | .hbm, ⟨34, _⟩ => ⟨S32x1024x16, .f32⟩
  | .hbm, ⟨35, _⟩ => ⟨S32x1024x16, .f32⟩
  | _, _ => ⟨S32x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S32x1024x16_0_1_2 : S1x1x16.BroadcastsInDim S32x1024x16 (![0, 1, 2] : Fin 3 → Fin S32x1024x16.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x16_S16x16_S32x1024x16_2_1_01_0_n_n_wf : DotDims.WF S32x1024x16 S16x16 S32x1024x16 [2] [1] [0, 1] [0] [] []
  dot_S32x1024x16_S32x1024x16_S32x1024x1024_2_2_1_1_0_0_wf : DotDims.WF S32x1024x16 S32x1024x16 S32x1024x1024 [2] [2] [1] [1] [0] [0]
  dot_S32x1024x1024_S32x1024x16_S32x1024x16_2_1_1_2_0_0_wf : DotDims.WF S32x1024x1024 S32x1024x16 S32x1024x16 [2] [1] [1] [2] [0] [0]

variable [Facts₀]

def dot_S32x1024x16_S16x16_S32x1024x16_2_1_01_0_n_n : DotDims S32x1024x16 S16x16 S32x1024x16 where
  lhsContracting := [2]
  rhsContracting := [1]
  lhsNonContracting := [0, 1]
  rhsNonContracting := [0]
  lhsBatch := []
  rhsBatch := []
  wf := dot_S32x1024x16_S16x16_S32x1024x16_2_1_01_0_n_n_wf
def dot_S32x1024x16_S32x1024x16_S32x1024x1024_2_2_1_1_0_0 : DotDims S32x1024x16 S32x1024x16 S32x1024x1024 where
  lhsContracting := [2]
  rhsContracting := [2]
  lhsNonContracting := [1]
  rhsNonContracting := [1]
  lhsBatch := [0]
  rhsBatch := [0]
  wf := dot_S32x1024x16_S32x1024x16_S32x1024x1024_2_2_1_1_0_0_wf
def dot_S32x1024x1024_S32x1024x16_S32x1024x16_2_1_1_2_0_0 : DotDims S32x1024x1024 S32x1024x16 S32x1024x16 where
  lhsContracting := [2]
  rhsContracting := [1]
  lhsNonContracting := [1]
  rhsNonContracting := [2]
  lhsBatch := [0]
  rhsBatch := [0]
  wf := dot_S32x1024x1024_S32x1024x16_S32x1024x16_2_1_1_2_0_0_wf

class Facts : Prop extends Facts₀ where

variable [Facts]
-- ==== Proof.LibAxisMax.lean ====
/-
  The maximum along one axis, read at an index on the extended reals.

  A vector unit's maximum reduction of `src : [n, d]` along its last axis is, at row `r`, the running maximum of
  the row `k ↦ src (r, k)` started from the accumulator word's value; along its first axis it is, at column `j`, the
  running maximum of the column. The host's reduction with a maximum body over a stack `[b, n, m]` is the same
  running maximum, along the last axis at `(b, i)` and along the middle axis at `(b, j)`, started from the initial
  value. `max` on the extended reals is commutative and associative, so the order of the fold does not matter,
  and the word of `-∞` is its neutral element.
-/
import Idealize.ShloMosaic.PureOps.Ideal
import Idealize.ShloMosaic.PureOps.Ideal.Laws
import Idealize.ShloMosaic.PureOps.Reduce
import Idealize.ShloMosaic.Lib.ValueIdx

noncomputable section

namespace Cert.LibAxisMax

open Idealize.ShloMosaic Idealize.ShloMosaic.ValueIdx

/-- The running maximum of a finite family `f` started from `b`. -/
def foldMax {n : ℕ} (b : EReal) (f : Fin n → EReal) : EReal := (Finset.univ : Finset (Fin n)).fold max b f

/-- The f32 word of `-∞` is the least extended real, so it is neutral for `max`. -/
theorem max_negInf_left (y : EReal) : max (Ideal.ofBits .f32 0xFF800000#32) y = y := by
  simp [Ideal.ofBits, Ideal.ieee]

/-- The maximum reduction of `[n, d]` along its last axis, at row `r`, is the running maximum of that row. -/
theorem max_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.maximumf.neutral φ hφ) (r : Fin n) :
    multiReduction .maximumf [1] ⟨1, ![n]⟩ src acc h hφ hacc (ix1 r) = foldMax (Ideal.ofBits φ acc) fun k : Fin d => src (ix2 r k) := by
  refine (Ideal.multiReduction_maximumf_single src acc h hφ hacc (ix1 r)).trans ?_
  refine congrArg (fun f : Fin d → EReal => (Finset.univ : Finset (Fin d)).fold max (Ideal.ofBits φ acc) f) ?_
  refine funext fun k => congrArg src (funext fun a => Fin.ext ?_)
  match a with
  | ⟨0, _⟩ => rfl
  | ⟨1, _⟩ => rfl

/-- The maximum reduction of `[n, d]` along its first axis, at column `j`, is the running maximum of that column. -/
theorem max_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.maximumf.neutral φ hφ) (j : Fin d) :
    multiReduction .maximumf [0] ⟨1, ![d]⟩ src acc h hφ hacc (ix1 j) = foldMax (Ideal.ofBits φ acc) fun r : Fin n => src (ix2 r j) := by
  refine (Ideal.multiReduction_maximumf_single src acc h hφ hacc (ix1 j)).trans ?_
  refine congrArg (fun f : Fin n → EReal => (Finset.univ : Finset (Fin n)).fold max (Ideal.ofBits φ acc) f) ?_
  refine funext fun r => congrArg src (funext fun a => Fin.ext ?_)
  match a with
  | ⟨0, _⟩ => rfl
  | ⟨1, _⟩ => rfl

/-- The host's maximum reduction of a stack `[b, n, m]` along its last axis, at `(p, i)`, is the running maximum of
    `k ↦ x (p, i, k)` started from the initial value. -/
theorem host_max_last {b n m : ℕ} {u : Shape} (x : (⟨3, ![b, n, m]⟩ : Shape).Idx → EReal) (init : u.Idx → EReal)
    (h' : Shape.ReducesTo ⟨3, ![b, n, m]⟩ [2] ⟨2, ![b, n]⟩) (h : Shape.Reduces ⟨3, ![b, n, m]⟩ [2] ⟨2, ![b, n]⟩)
    (hu : 0 < u.numel) (p : Fin b) (i : Fin n) :
    Host.reduce (FloatOps.maximumf (F := Ideal) (φ := .f32)) x init h' hu (ix2 p i)
      = foldMax (init (Shape.Idx.first hu)) fun k : Fin m => x (ix3 p i k) := by
  refine (Host.reduce_eq_fold_single (FloatOps.maximumf (F := Ideal) (φ := .f32)) x init h' h hu (ix2 p i)).trans ?_
  refine congrArg (fun f : Fin m → EReal => (Finset.univ : Finset (Fin m)).fold max (init (Shape.Idx.first hu)) f) ?_
  refine funext fun k => congrArg x (funext fun a => Fin.ext ?_)
  match a with
  | ⟨0, _⟩ => rfl
  | ⟨1, _⟩ => rfl
  | ⟨2, _⟩ => rfl

/-- The host's maximum reduction of a stack `[b, n, m]` along its middle axis, at `(p, j)`, is the running maximum
    of `i ↦ x (p, i, j)` started from the initial value. -/
theorem host_max_mid {b n m : ℕ} {u : Shape} (x : (⟨3, ![b, n, m]⟩ : Shape).Idx → EReal) (init : u.Idx → EReal)
    (h' : Shape.ReducesTo ⟨3, ![b, n, m]⟩ [1] ⟨2, ![b, m]⟩) (h : Shape.Reduces ⟨3, ![b, n, m]⟩ [1] ⟨2, ![b, m]⟩)
    (hu : 0 < u.numel) (p : Fin b) (j : Fin m) :
    Host.reduce (FloatOps.maximumf (F := Ideal) (φ := .f32)) x init h' hu (ix2 p j)
      = foldMax (init (Shape.Idx.first hu)) fun i : Fin n => x (ix3 p i j) := by
  refine (Host.reduce_eq_fold_single (FloatOps.maximumf (F := Ideal) (φ := .f32)) x init h' h hu (ix2 p j)).trans ?_
  refine congrArg (fun f : Fin n → EReal => (Finset.univ : Finset (Fin n)).fold max (init (Shape.Idx.first hu)) f) ?_
  refine funext fun i => congrArg x (funext fun a => Fin.ext ?_)
  match a with
  | ⟨0, _⟩ => rfl
  | ⟨1, _⟩ => rfl
  | ⟨2, _⟩ => rfl

end Cert.LibAxisMax

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibKeepdims.lean ====
/-
  A column kept as a unit axis, read at an index.

  A reduction that keeps its axis leaves a column `[a, 1]`: the vector `[a]` re-laid with a trailing unit axis, which
  reads at `(i, u)` the vector at `i`; and that column spread over `b` lanes reads at `(i, j)` the column at
  `(i, 0)`. Both hold for any element type.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibMatmulTransposedRhs.lean ====
/-
  A rows-by-rows matrix product into a zero accumulator, read at an index on the extended reals.

  For `A : [M, K]` and `B : [N, K]`, both contracted on their last axis, the product accumulated into the zero splat
  is, at `(i, j)`, the finite sum `∑ k, A (i, k) * B (j, k)`: the inner product of row `i` of `A` with row `j` of `B`.
  At the exact values no rounding and no chunk order is left, and the contraction index with its one axis is the
  coordinate `k`. Generic in the three extents and the two operand formats; nothing here needs finiteness.
-/
import Idealize.ShloMosaic.PureOps.Ideal
import Idealize.ShloMosaic.PureOps.Ideal.Laws
import Idealize.ShloMosaic.Lib.ValueIdx

noncomputable section

namespace Cert.LibMatmulTransposedRhs

open Idealize.ShloMosaic Idealize.ShloMosaic.ValueIdx

/-- The product `[M, K] × [N, K]ᵀ` into the zero accumulator at `(i, j)` is `∑ k, A (i, k) * B (j, k)`. -/
theorem matmul_zero_apply {M K N : ℕ} {φ₁ φ₂ : FTy} (prec : Option ContractPrecision)
    (A : FVec Ideal ⟨2, ![M, K]⟩ φ₁) (B : FVec Ideal ⟨2, ![N, K]⟩ φ₂) (i : Fin M) (j : Fin N) :
    FloatOps.matmul (DotDims.transposedRhs M K N) prec A B (constant ⟨2, ![M, N]⟩ .f32 0x00000000#32) (ix2 i j)
      = ∑ k : Fin K, A (ix2 i k) * B (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.LibMatmulTransposedRhs

end
-- ==== Proof.Spec.lean ====
/-
  One batch of single-head attention multiplied entry by entry by its input, on the extended reals, as functions of coordinates.

  For a slab `x : [1024, 16]` (rows `q`, features `d`), weight matrices `w : [16, 16]` read as `w e d` (output feature
  `e`, input feature `d`) and biases `β : [16]`:
    proj x w β q e   = (∑ d, x q d * w e d) + β e                  a linear layer, y = x · wᵀ + β
    scores Q K q k   = ∑ d, Q q d * K k d                          unscaled inner products of query and key rows
    rowmax S q       = max (-∞) (running max of S q · from -∞)     the stabilising shift of a softmax
    expo S q k       = exp (S q k - rowmax S q)
    weights E q k    = E q k / ∑ k', E q k'                        the softmax weights
    att P V q d      = ∑ k, P q k * V k d
    attn … q d       = att (weights (expo (scores Q K))) V q d * x q d
  Every sum is a finite sum in the commutative monoid of extended reals and every other operation is applied
  once per entry, so no finiteness is assumed anywhere: the two programs are compared as the same composition.
-/
import Idealize.ShloMosaic.PureOps.Ideal
import Idealize.ShloMosaic.Lib.ValueIdx
import proofs.«112975_j60533269070298_1_alg».proof.Proof.LibAxisMax

noncomputable section

namespace Cert.Spec

open Idealize.ShloMosaic Idealize.ShloMosaic.ValueIdx
open Cert.LibAxisMax (foldMax)

/-- The word of `-∞` as the extended real it denotes. -/
abbrev negInf : EReal := Ideal.ofBits .f32 0xFF800000#32

/-- A linear layer `x · wᵀ + β` at row `q`, output feature `e`. -/
def proj (x : Fin 1024 → Fin 16 → EReal) (w : Fin 16 → Fin 16 → EReal) (β : Fin 16 → EReal) (q : Fin 1024) (e : Fin 16) : EReal :=
  (∑ d : Fin 16, x q d * w e d) + β e

/-- The inner product of query row `q` and key row `k`. -/
def scores (Q K : Fin 1024 → Fin 16 → EReal) (q k : Fin 1024) : EReal :=
  ∑ d : Fin 16, Q q d * K k d

/-- The shift of row `q`: the larger of `-∞` and the row's running maximum started from `-∞`. -/
def rowmax (S : Fin 1024 → Fin 1024 → EReal) (q : Fin 1024) : EReal :=
  max negInf (foldMax negInf fun k : Fin 1024 => S q k)

/-- The shifted exponential. -/
def expo (S : Fin 1024 → Fin 1024 → EReal) (q k : Fin 1024) : EReal :=
  Ideal.exp (S q k - rowmax S q)

/-- An entry over its row's total. -/
def weights (E : Fin 1024 → Fin 1024 → EReal) (q k : Fin 1024) : EReal :=
  Ideal.div (E q k) (∑ k' : Fin 1024, E q k')

/-- The weighted sum of value rows. -/
def att (P : Fin 1024 → Fin 1024 → EReal) (V : Fin 1024 → Fin 16 → EReal) (q : Fin 1024) (d : Fin 16) : EReal :=
  ∑ k : Fin 1024, P q k * V k d

/-- One batch: softmax attention over the slab's own projections, multiplied entry by entry by the slab. -/
def attn (x : Fin 1024 → Fin 16 → EReal) (wq : Fin 16 → Fin 16 → EReal) (βq : Fin 16 → EReal)
    (wk : Fin 16 → Fin 16 → EReal) (βk : Fin 16 → EReal) (wv : Fin 16 → Fin 16 → EReal) (βv : Fin 16 → EReal)
    (q : Fin 1024) (d : Fin 16) : EReal :=
  att (weights (expo (scores (proj x wq βq) (proj x wk βk)))) (proj x wv βv) q d * x q d

/-- The whole result `[32, 1024, 16]`: entry `(b, q, d)` is batch `b`'s slab attended and multiplied by its entry, at row `q`, feature
    `d`. The weights are read as given, `W (e, d)`, and the biases as vectors. -/
def attnAll (X : (⟨3, ![32, 1024, 16]⟩ : Shape).Idx → EReal)
    (Wq : (⟨2, ![16, 16]⟩ : Shape).Idx → EReal) (bq : (⟨1, ![16]⟩ : Shape).Idx → EReal)
    (Wk : (⟨2, ![16, 16]⟩ : Shape).Idx → EReal) (bk : (⟨1, ![16]⟩ : Shape).Idx → EReal)
    (Wv : (⟨2, ![16, 16]⟩ : Shape).Idx → EReal) (bv : (⟨1, ![16]⟩ : Shape).Idx → EReal) :
    (⟨3, ![32, 1024, 16]⟩ : Shape).Idx → EReal :=
  fun i => attn (fun q d => X (ix3 (i 0) q d)) (fun e d => Wq (ix2 e d)) (fun e => bq (ix1 e))
    (fun e d => Wk (ix2 e d)) (fun e => bk (ix1 e)) (fun e d => Wv (ix2 e d)) (fun e => bv (ix1 e)) (i 1) (i 2)

/-- The same at coordinates. -/
theorem attnAll_ix3 (X : (⟨3, ![32, 1024, 16]⟩ : Shape).Idx → EReal)
    (Wq : (⟨2, ![16, 16]⟩ : Shape).Idx → EReal) (bq : (⟨1, ![16]⟩ : Shape).Idx → EReal)
    (Wk : (⟨2, ![16, 16]⟩ : Shape).Idx → EReal) (bk : (⟨1, ![16]⟩ : Shape).Idx → EReal)
    (Wv : (⟨2, ![16, 16]⟩ : Shape).Idx → EReal) (bv : (⟨1, ![16]⟩ : Shape).Idx → EReal)
    (b : Fin 32) (q : Fin 1024) (d : Fin 16) :
    attnAll X Wq bq Wk bk Wv bv (ix3 b q d)
      = attn (fun q d => X (ix3 b q d)) (fun e d => Wq (ix2 e d)) (fun e => bq (ix1 e))
          (fun e d => Wk (ix2 e d)) (fun e => bk (ix1 e)) (fun e d => Wv (ix2 e d)) (fun e => bv (ix1 e)) q d := rfl

end Cert.Spec

end
-- ==== Proof.KernelStages.lean ====
/-
  The kernel's body, operation by operation, read at an index on the extended reals.

  The body works on one slab `[1024, 16]` (its block with the leading unit axis dropped), three weight blocks
  `[16, 16]` that arrive already transposed (read as `w d e`: input feature `d`, output feature `e`) and three bias
  rows `[1, 16]`. At the exact values a change of float format is the identity, a matrix product into the zero
  accumulator is a finite sum, a row reduction is a finite sum or a running maximum, and the kept unit axis of a
  reduction spread back over the row reads the reduced value of that row.
-/
import proofs.«112975_j60533269070298_1_alg».proof.Proof.Gen.KernelIdeal.Skeleton
import proofs.«112975_j60533269070298_1_alg».proof.Proof.LibAxisMax
import proofs.«112975_j60533269070298_1_alg».proof.Proof.LibAxisSum
import proofs.«112975_j60533269070298_1_alg».proof.Proof.LibKeepdims
import proofs.«112975_j60533269070298_1_alg».proof.Proof.LibMatmulPlain
import proofs.«112975_j60533269070298_1_alg».proof.Proof.LibMatmulTransposedRhs
import proofs.«112975_j60533269070298_1_alg».proof.Proof.Spec
import Idealize.ShloMosaic.Lib.ValueLayout
import Idealize.ShloMosaic.Lib.Pipeline.Value

noncomputable section

namespace Cert.KernelStages

open Idealize.ShloMosaic Idealize.ShloMosaic.ValueIdx
open Cert.KernelIdeal Cert.KernelIdeal.Gen
open Cert.LibAxisMax (foldMax)
open Cert.Spec (negInf)

/-- The slab: the block with its leading unit axis dropped reads, at `(q, d)`, the block at `(0, q, d)`. -/
theorem slab_apply (v0 : Vec Ideal S1x1024x16 .f32) (q : Fin 1024) (d : Fin 16) :
    k0_pay2 (F := Ideal) v0 (ix2 q d) = v0 (ix3 (0 : Fin 1) q d) :=
  shapeCast_1ab_ab_apply v0 _ q d

/-- The same after the change of format, which is the identity at the exact values. -/
theorem slab16_apply (v0 : Vec Ideal S1x1024x16 .f32) (q : Fin 1024) (d : Fin 16) :
    k0_pay3 (F := Ideal) v0 (ix2 q d) = v0 (ix3 (0 : Fin 1) q d) :=
  slab_apply v0 q d

/-- A linear layer in the body's spelling: the slab times a transposed weight block into the zero accumulator,
    plus the bias row broadcast down the rows. -/
theorem proj_apply (x : FVec Ideal S1024x16 .bf16) (w : Vec Ideal S16x16 .f32) (r : Vec Ideal S1x16 .f32)
    (q : Fin 1024) (e : Fin 16) :
    addf (matmul dot_S1024x16_S16x16_S1024x16_1_0_0_1_n_n none x
            (truncf .bf16 (shapeCast S16x16 w shapeCasts_S16x16_S16x16) bitsLt_bf16_f32) (constant S1024x16 .f32 0x00000000#32))
         (broadcastTo S1024x16 (shapeCast S1x16 r shapeCasts_S1x16_S1x16) broadcasts_S1x16_S1024x16) (ix2 q e)
      = (∑ d : Fin 16, x (ix2 q d) * w (ix2 d e)) + r (ix2 (0 : Fin 1) e) := by
  refine congrArg₂ (· + ·) ?_ ?_
  · refine (LibMatmulPlain.matmul_zero_apply none x _ q e).trans ?_
    refine Finset.sum_congr rfl fun d _ => congrArg (x (ix2 q d) * ·) ?_
    show shapeCast S16x16 w _ (ix2 d e) = _
    rw [shapeCast_self]
  · rw [shapeCast_self]
    exact broadcastTo_1b_ab_apply r _ q e

/-- The scores in the body's spelling: query rows against key rows, both contracted on the feature axis. -/
theorem scores_apply (Q K : FVec Ideal S1024x16 .f32) (q k : Fin 1024) :
    matmul dot_S1024x16_S1024x16_S1024x1024_1_1_0_0_n_n none (truncf .bf16 Q bitsLt_bf16_f32) (truncf .bf16 K bitsLt_bf16_f32)
        (constant S1024x1024 .f32 0x00000000#32) (ix2 q k)
      = ∑ d : Fin 16, Q (ix2 q d) * K (ix2 k d) :=
  LibMatmulTransposedRhs.matmul_zero_apply none _ _ q k

/-- The row maximum kept as a unit axis and spread back over the row. -/
theorem rowmax_apply (S : FVec Ideal S1024x1024 .f32) (q k : Fin 1024) :
    broadcastTo S1024x1024
        (shapeCast S1024x1
          (maximumf (broadcast S1024 (Scalar.ofBits (F := Ideal) .f32 0xFF800000#32))
            (multiReduction .maximumf [1] S1024 S 0xFF800000#32 reduces_S1024x1024_S1024 (.inl rfl) rfl))
          shapeCasts_S1024_S1024x1)
        broadcasts_S1024x1_S1024x1024 (ix2 q k)
      = max negInf (foldMax negInf fun k' : Fin 1024 => S (ix2 q k')) := by
  rw [LibKeepdims.broadcastTo_a1_ab_apply, LibKeepdims.shapeCast_a_a1_apply, maximumf_apply, broadcast_apply,
    Ideal.ofBits_def]
  exact congrArg (max negInf) (LibAxisMax.max_last S _ _ _ _ q)

/-- The row total kept as a unit axis and spread back over the row. -/
theorem rowsum_apply (E : FVec Ideal S1024x1024 .f32) (q k : Fin 1024) :
    broadcastTo S1024x1024
        (shapeCast S1024x1 (multiReduction .add [1] S1024 E 0x00000000#32 reduces_S1024x1024_S1024 (.inl rfl) rfl)
          shapeCasts_S1024_S1024x1)
        broadcasts_S1024x1_S1024x1024 (ix2 q k)
      = ∑ k' : Fin 1024, E (ix2 q k') := by
  rw [LibKeepdims.broadcastTo_a1_ab_apply, LibKeepdims.shapeCast_a_a1_apply]
  exact LibAxisSum.sum_last E _ _ _ _ q

/-- The weighted sum of value rows in the body's spelling. -/
theorem att_apply (P : FVec Ideal S1024x1024 .f32) (V : FVec Ideal S1024x16 .bf16) (q : Fin 1024) (d : Fin 16) :
    matmul dot_S1024x1024_S1024x16_S1024x16_1_0_0_1_n_n none (truncf .bf16 P bitsLt_bf16_f32) V
        (constant S1024x16 .f32 0x00000000#32) (ix2 q d)
      = ∑ k : Fin 1024, P (ix2 q k) * V (ix2 k d) :=
  LibMatmulPlain.matmul_zero_apply none _ V q d

end Cert.KernelStages

end
-- ==== Proof.KernelIsSpec.lean ====
/-
  The kernel's body computes the specification on the blocks it loads.

  From a slab block `x0 : [1, 1024, 16]`, transposed weight blocks `x1 x3 x5 : [16, 16]` and bias rows
  `x2 x4 x6 : [1, 16]`, the value the body stores at `(0, q, d)` is `attn` of the slab `(q, d) ↦ x0 (0, q, d)`, the
  weights `(e, d) ↦ xW (d, e)` and the biases `e ↦ xB (0, e)`. When the blocks are batch `b` of the input, the
  transposes of the given weights and the biases laid out as rows, that is entry `(b, q, d)` of the whole result.
-/
import proofs.«112975_j60533269070298_1_alg».proof.Proof.KernelStages

noncomputable section

namespace Cert.KernelIsSpec

open Idealize.ShloMosaic Idealize.ShloMosaic.ValueIdx
open Cert.KernelIdeal Cert.KernelIdeal.Gen Cert.KernelStages
open Cert.LibAxisMax (foldMax)
open Cert.Spec (negInf)

/-- A projected block, rounded for the next product (the identity at the exact values), is `proj`. -/
theorem pay4_apply (x0 : Vec Ideal S1x1024x16 .f32) (w : Vec Ideal S16x16 .f32) (r : Vec Ideal S1x16 .f32)
    (k : Fin 1024) (e : Fin 16) :
    k0_pay4 (F := Ideal) x0 w r (ix2 k e)
      = Spec.proj (fun q d => x0 (ix3 (0 : Fin 1) q d)) (fun e d => w (ix2 d e)) (fun e => r (ix2 (0 : Fin 1) e)) k e := by
  unfold k0_pay4 Spec.proj
  refine (proj_apply (k0_pay3 x0) w r k e).trans ?_
  exact congrArg (· + r (ix2 (0 : Fin 1) e))
    (Finset.sum_congr rfl fun d _ => congrArg (· * w (ix2 d e)) (slab16_apply x0 k d))

/-- The shifted exponentials of the scores of the two projected blocks are `expo (scores …)`. -/
theorem pay5_apply (x0 : Vec Ideal S1x1024x16 .f32) (w1 w3 : Vec Ideal S16x16 .f32) (r2 r4 : Vec Ideal S1x16 .f32)
    (q k : Fin 1024) :
    k0_pay5 (F := Ideal) x0 w1 w3 r2 r4 (ix2 q k)
      = Spec.expo (Spec.scores
          (Spec.proj (fun q d => x0 (ix3 (0 : Fin 1) q d)) (fun e d => w1 (ix2 d e)) (fun e => r2 (ix2 (0 : Fin 1) e)))
          (Spec.proj (fun q d => x0 (ix3 (0 : Fin 1) q d)) (fun e d => w3 (ix2 d e)) (fun e => r4 (ix2 (0 : Fin 1) e)))) q k := by
  -- the two projections and their scores, in the body's spelling
  have hP : ∀ (w : Vec Ideal S16x16 .f32) (r : Vec Ideal S1x16 .f32) (q : Fin 1024) (e : Fin 16),
      addf (matmul dot_S1024x16_S16x16_S1024x16_1_0_0_1_n_n none (k0_pay3 x0)
              (truncf .bf16 (shapeCast S16x16 w shapeCasts_S16x16_S16x16) bitsLt_bf16_f32) (constant S1024x16 .f32 0x00000000#32))
           (broadcastTo S1024x16 (shapeCast S1x16 r shapeCasts_S1x16_S1x16) broadcasts_S1x16_S1024x16) (ix2 q e)
        = Spec.proj (fun q d => x0 (ix3 (0 : Fin 1) q d)) (fun e d => w (ix2 d e)) (fun e => r (ix2 (0 : Fin 1) e)) q e :=
    fun w r q e => (proj_apply (k0_pay3 x0) w r q e).trans
      (congrArg (· + r (ix2 (0 : Fin 1) e))
        (Finset.sum_congr rfl fun d _ => congrArg (· * w (ix2 d e)) (slab16_apply x0 q d)))
  have hS : ∀ q k : Fin 1024,
      matmul dot_S1024x16_S1024x16_S1024x1024_1_1_0_0_n_n none
          (truncf .bf16 (addf (matmul dot_S1024x16_S16x16_S1024x16_1_0_0_1_n_n none (k0_pay3 x0)
              (truncf .bf16 (shapeCast S16x16 w1 shapeCasts_S16x16_S16x16) bitsLt_bf16_f32) (constant S1024x16 .f32 0x00000000#32))
            (broadcastTo S1024x16 (shapeCast S1x16 r2 shapeCasts_S1x16_S1x16) broadcasts_S1x16_S1024x16)) bitsLt_bf16_f32)
          (truncf .bf16 (addf (matmul dot_S1024x16_S16x16_S1024x16_1_0_0_1_n_n none (k0_pay3 x0)
              (truncf .bf16 (shapeCast S16x16 w3 shapeCasts_S16x16_S16x16) bitsLt_bf16_f32) (constant S1024x16 .f32 0x00000000#32))
            (broadcastTo S1024x16 (shapeCast S1x16 r4 shapeCasts_S1x16_S1x16) broadcasts_S1x16_S1024x16)) bitsLt_bf16_f32)
          (constant S1024x1024 .f32 0x00000000#32) (ix2 q k)
        = Spec.scores
            (Spec.proj (fun q d => x0 (ix3 (0 : Fin 1) q d)) (fun e d => w1 (ix2 d e)) (fun e => r2 (ix2 (0 : Fin 1) e)))
            (Spec.proj (fun q d => x0 (ix3 (0 : Fin 1) q d)) (fun e d => w3 (ix2 d e)) (fun e => r4 (ix2 (0 : Fin 1) e))) q k :=
    fun q k => (scores_apply _ _ q k).trans
      (Finset.sum_congr rfl fun d _ => congrArg₂ (· * ·) (hP w1 r2 q d) (hP w3 r4 k d))
  unfold k0_pay5 Spec.expo Spec.rowmax
  refine congrArg₂ (fun a s => Ideal.exp (a - s)) (hS q k) ((rowmax_apply _ q k).trans ?_)
  exact congrArg (max negInf) (congrArg (foldMax negInf) (funext fun k' => hS q k'))

/-- The stored value from the slab, the rounded value block and the exponentials: weights, weighted sum, entrywise product with the slab. -/
theorem pay1_apply (x1 : FVec Ideal S1024x16 .f32) (Vb : FVec Ideal S1024x16 .bf16) (E : FVec Ideal S1024x1024 .f32)
    (u : Fin 1) (q : Fin 1024) (d : Fin 16) :
    k0_pay1 (F := Ideal) x1 Vb E (ix3 u q d)
      = Spec.att (Spec.weights fun q k => E (ix2 q k)) (fun k d => Vb (ix2 k d)) q d * x1 (ix2 q d) := by
  unfold k0_pay1
  refine (shapeCast_ab_1ab_apply _ _ u q d).trans ?_
  refine congrArg (· * x1 (ix2 q d)) ((att_apply _ Vb q d).trans ?_)
  unfold Spec.att Spec.weights
  refine Finset.sum_congr rfl fun k _ => congrArg (· * Vb (ix2 k d)) ?_
  exact congrArg (Ideal.div (E (ix2 q k))) (rowsum_apply E q k)

/-- The body's stored value at `(u, q, d)` is the specification of its blocks. -/
theorem body_apply (x0 : Vec Ideal S1x1024x16 .f32) (x1 : Vec Ideal S16x16 .f32) (x2 : Vec Ideal S1x16 .f32)
    (x3 : Vec Ideal S16x16 .f32) (x4 : Vec Ideal S1x16 .f32) (x5 : Vec Ideal S16x16 .f32) (x6 : Vec Ideal S1x16 .f32)
    (u : Fin 1) (q : Fin 1024) (d : Fin 16) :
    k0_pay1 (F := Ideal) (k0_pay2 x0) (k0_pay4 x0 x5 x6) (k0_pay5 x0 x1 x3 x2 x4) (ix3 u q d)
      = Spec.attn (fun q d => x0 (ix3 (0 : Fin 1) q d))
          (fun e d => x1 (ix2 d e)) (fun e => x2 (ix2 (0 : Fin 1) e))
          (fun e d => x3 (ix2 d e)) (fun e => x4 (ix2 (0 : Fin 1) e))
          (fun e d => x5 (ix2 d e)) (fun e => x6 (ix2 (0 : Fin 1) e)) q d := by
  refine (pay1_apply _ _ _ u q d).trans ?_
  unfold Spec.attn
  have hE : (fun q k => k0_pay5 (F := Ideal) x0 x1 x3 x2 x4 (ix2 q k))
      = Spec.expo (Spec.scores
          (Spec.proj (fun q d => x0 (ix3 (0 : Fin 1) q d)) (fun e d => x1 (ix2 d e)) (fun e => x2 (ix2 (0 : Fin 1) e)))
          (Spec.proj (fun q d => x0 (ix3 (0 : Fin 1) q d)) (fun e d => x3 (ix2 d e)) (fun e => x4 (ix2 (0 : Fin 1) e)))) :=
    funext fun q => funext fun k => pay5_apply x0 x1 x3 x2 x4 q k
  have hV : (fun k d => k0_pay4 (F := Ideal) x0 x5 x6 (ix2 k d))
      = Spec.proj (fun q d => x0 (ix3 (0 : Fin 1) q d)) (fun e d => x5 (ix2 d e)) (fun e => x6 (ix2 (0 : Fin 1) e)) :=
    funext fun k => funext fun d => pay4_apply x0 x5 x6 k d
  rw [hE, hV, slab_apply]

/-- At batch `b`: when the slab block is batch `b` of the input, the weight blocks are the transposes of the given
    weights and the bias rows are the given biases, the stored value at `(u, q, d)` is the whole result at
    `(b, q, d)`. -/
theorem body_at_batch
    (X : (⟨3, ![32, 1024, 16]⟩ : Shape).Idx → EReal)
    (Wq : (⟨2, ![16, 16]⟩ : Shape).Idx → EReal) (bq : (⟨1, ![16]⟩ : Shape).Idx → EReal)
    (Wk : (⟨2, ![16, 16]⟩ : Shape).Idx → EReal) (bk : (⟨1, ![16]⟩ : Shape).Idx → EReal)
    (Wv : (⟨2, ![16, 16]⟩ : Shape).Idx → EReal) (bv : (⟨1, ![16]⟩ : Shape).Idx → EReal)
    (x0 : Vec Ideal S1x1024x16 .f32) (x1 : Vec Ideal S16x16 .f32) (x2 : Vec Ideal S1x16 .f32)
    (x3 : Vec Ideal S16x16 .f32) (x4 : Vec Ideal S1x16 .f32) (x5 : Vec Ideal S16x16 .f32) (x6 : Vec Ideal S1x16 .f32)
    (b : Fin 32)
    (h0 : ∀ (q : Fin 1024) (d : Fin 16), x0 (ix3 (0 : Fin 1) q d) = X (ix3 b q d))
    (h1 : ∀ d e : Fin 16, x1 (ix2 d e) = Wq (ix2 e d)) (h2 : ∀ e : Fin 16, x2 (ix2 (0 : Fin 1) e) = bq (ix1 e))
    (h3 : ∀ d e : Fin 16, x3 (ix2 d e) = Wk (ix2 e d)) (h4 : ∀ e : Fin 16, x4 (ix2 (0 : Fin 1) e) = bk (ix1 e))
    (h5 : ∀ d e : Fin 16, x5 (ix2 d e) = Wv (ix2 e d)) (h6 : ∀ e : Fin 16, x6 (ix2 (0 : Fin 1) e) = bv (ix1 e))
    (u : Fin 1) (q : Fin 1024) (d : Fin 16) :
    k0_pay1 (F := Ideal) (k0_pay2 x0) (k0_pay4 x0 x5 x6) (k0_pay5 x0 x1 x3 x2 x4) (ix3 u q d)
      = Spec.attnAll X Wq bq Wk bk Wv bv (ix3 b q d) := by
  rw [body_apply, Spec.attnAll_ix3]
  have e0 : (fun (q : Fin 1024) (d : Fin 16) => x0 (ix3 (0 : Fin 1) q d)) = fun q d => X (ix3 b q d) :=
    funext fun q => funext fun d => h0 q d
  have e1 : (fun e d : Fin 16 => x1 (ix2 d e)) = fun e d => Wq (ix2 e d) := funext fun e => funext fun d => h1 d e
  have e2 : (fun e : Fin 16 => x2 (ix2 (0 : Fin 1) e)) = fun e => bq (ix1 e) := funext h2
  have e3 : (fun e d : Fin 16 => x3 (ix2 d e)) = fun e d => Wk (ix2 e d) := funext fun e => funext fun d => h3 d e
  have e4 : (fun e : Fin 16 => x4 (ix2 (0 : Fin 1) e)) = fun e => bk (ix1 e) := funext h4
  have e5 : (fun e d : Fin 16 => x5 (ix2 d e)) = fun e d => Wv (ix2 e d) := funext fun e => funext fun d => h5 d e
  have e6 : (fun e : Fin 16 => x6 (ix2 (0 : Fin 1) e)) = fun e => bv (ix1 e) := funext h6
  rw [e0, e1, e2, e3, e4, e5, e6]

end Cert.KernelIsSpec

end
-- ==== Proof.KernelValue.lean ====
/-
  From blocks to the whole array: the kernel's result array is the specification.

  The grid has one point per batch. Point `t` stages block `(t, 0, 0)` of the input `[32, 1024, 16]`, that is batch
  `t`'s slab, and the whole of each weight and bias array (their one block, at every point); the weight arrays it
  finds are the transposes of the given weights and the bias arrays the given biases laid out as rows `[1, 16]`.
  What point `t` writes back is therefore block `(t, 0, 0)` of the specification's whole result, and since these 32
  blocks tile the result array (index `(b, q, d)` lies in point `b`'s block), the array ends holding exactly that.
-/
import proofs.«112975_j60533269070298_1_alg».proof.Proof.Gen.KernelIdeal.Value
import proofs.«112975_j60533269070298_1_alg».proof.Proof.KernelIsSpec
import Idealize.ShloMosaic.Lib.Pipeline.Value
import Idealize.ShloMosaic.Lib.ValueLayout
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The whole result of the launch memory's argument arrays. -/
abbrev result (c : Dev nD) : S32x1024x16.Idx → EReal :=
  Spec.attnAll (m ((c : Thread nD τ).loc main_arg0) : S32x1024x16.Idx → EReal)
    (m ((c : Thread nD τ).loc main_arg1) : S16x16.Idx → EReal) (m ((c : Thread nD τ).loc main_arg2) : S16.Idx → EReal)
    (m ((c : Thread nD τ).loc main_arg3) : S16x16.Idx → EReal) (m ((c : Thread nD τ).loc main_arg4) : S16.Idx → EReal)
    (m ((c : Thread nD τ).loc main_arg5) : S16x16.Idx → EReal) (m ((c : Thread nD τ).loc main_arg6) : S16.Idx → EReal)

/-! ## The arrays the region finds -/

/-- The three weight arrays the region finds are the transposes of the given weights. -/
theorem V_wq (c : Dev nD) : (V m c main_v0 : S16x16.Idx → EReal)
    = transpose S16x16 [1, 0] (m ((c : Thread nD τ).loc main_arg1) : S16x16.Idx → EReal) transposes_S16x16_S16x16_1_0 := by
  dsimp only [Gen.V, Gen.hostOps0]; after_results
theorem V_wk (c : Dev nD) : (V m c main_v1 : S16x16.Idx → EReal)
    = transpose S16x16 [1, 0] (m ((c : Thread nD τ).loc main_arg3) : S16x16.Idx → EReal) transposes_S16x16_S16x16_1_0 := by
  dsimp only [Gen.V, Gen.hostOps0]; after_results
theorem V_wv (c : Dev nD) : (V m c main_v2 : S16x16.Idx → EReal)
    = transpose S16x16 [1, 0] (m ((c : Thread nD τ).loc main_arg5) : S16x16.Idx → EReal) transposes_S16x16_S16x16_1_0 := by
  dsimp only [Gen.V, Gen.hostOps0]; after_results

/-- The three bias arrays the region finds are the given biases laid out as rows. -/
theorem V_bq (c : Dev nD) : (V m c main_v3 : S1x16.Idx → EReal)
    = shapeCast S1x16 (m ((c : Thread nD τ).loc main_arg2) : S16.Idx → EReal) shapeCasts_S16_S1x16 := by
  dsimp only [Gen.V, Gen.hostOps0]; after_results; rfl
theorem V_bk (c : Dev nD) : (V m c main_v4 : S1x16.Idx → EReal)
    = shapeCast S1x16 (m ((c : Thread nD τ).loc main_arg4) : S16.Idx → EReal) shapeCasts_S16_S1x16 := by
  dsimp only [Gen.V, Gen.hostOps0]; after_results; rfl
theorem V_bv (c : Dev nD) : (V m c main_v5 : S1x16.Idx → EReal)
    = shapeCast S1x16 (m ((c : Thread nD τ).loc main_arg6) : S16.Idx → EReal) shapeCasts_S16_S1x16 := by
  dsimp only [Gen.V, Gen.hostOps0]; after_results; rfl

/-! ## The blocks -/

/-- The printed index maps, decided over the 32 grid points: the slab and result windows' block is `(t, 0, 0)`, every
    other window's block is `(0, 0)`. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The batch a grid point works on. -/
def batchOf (t : Fin cfg0.N) : Fin 32 := ⟨t.val, lt_of_lt_of_eq t.isLt N_0⟩

/-- The slab block at point `t` is batch `t` of the input. -/
theorem blk0_apply (c : Dev nD) (t : Fin cfg0.N) (q : Fin 1024) (d : Fin 16) :
    (iblk m c 0 t : Vec Ideal S1x1024x16 .f32) (ix3 (0 : Fin 1) q d)
      = (m ((c : Thread nD τ).loc main_arg0) : S32x1024x16.Idx → EReal) (ix3 (batchOf t) q d) := by
  obtain ⟨e0, e1, e2, -⟩ := idx_facts t
  unfold iblk
  rw [View.read_apply]
  show V m c main_arg0 _ = _
  rw [V_main_arg0]
  refine congrArg (m ((c : Thread nD τ).loc main_arg0) : S32x1024x16.Idx → EReal) (funext fun a => Fin.ext ?_)
  match a with
  | ⟨0, _⟩ => show win0_0.index t (0 : Fin 3) * 1 + 1 * 0 = t.val; omega
  | ⟨1, _⟩ => show win0_0.index t (1 : Fin 3) * 1024 + 1 * q.val = q.val; omega
  | ⟨2, _⟩ => show win0_0.index t (2 : Fin 3) * 16 + 1 * d.val = d.val; omega

/-- A weight window's one block is the whole transposed array: at `(d, e)` the given weight at `(e, d)`. -/
theorem blk1_apply (c : Dev nD) (t : Fin cfg0.N) (d e : Fin 16) :
    (iblk m c 1 t : Vec Ideal S16x16 .f32) (ix2 d e) = (m ((c : Thread nD τ).loc main_arg1) : S16x16.Idx → EReal) (ix2 e d) := by
  obtain ⟨-, -, -, -, -, -, e0, e1, -⟩ := idx_facts t
  have hemb : ((cfg0.win 1).blk t).view.emb (ix2 d e) = ix2 d e := funext fun a => Fin.ext (by
    match a with
    | ⟨0, _⟩ => show win0_1.index t (0 : Fin 2) * 16 + 1 * d.val = d.val; omega
    | ⟨1, _⟩ => show win0_1.index t (1 : Fin 2) * 16 + 1 * e.val = e.val; omega)
  unfold iblk
  rw [View.read_apply]
  show (V m c main_v0 : S16x16.Idx → EReal) (((cfg0.win 1).blk t).view.emb (ix2 d e)) = _
  rw [hemb, V_wq]
  exact transpose_ix2_apply _ _ d e
theorem blk3_apply (c : Dev nD) (t : Fin cfg0.N) (d e : Fin 16) :
    (iblk m c 3 t : Vec Ideal S16x16 .f32) (ix2 d e) = (m ((c : Thread nD τ).loc main_arg3) : S16x16.Idx → EReal) (ix2 e d) := by
  obtain ⟨-, -, -, -, -, -, -, -, -, -, e0, e1, -⟩ := idx_facts t
  have hemb : ((cfg0.win 3).blk t).view.emb (ix2 d e) = ix2 d e := funext fun a => Fin.ext (by
    match a with
    | ⟨0, _⟩ => show win0_3.index t (0 : Fin 2) * 16 + 1 * d.val = d.val; omega
    | ⟨1, _⟩ => show win0_3.index t (1 : Fin 2) * 16 + 1 * e.val = e.val; omega)
  unfold iblk
  rw [View.read_apply]
  show (V m c main_v1 : S16x16.Idx → EReal) (((cfg0.win 3).blk t).view.emb (ix2 d e)) = _
  rw [hemb, V_wk]
  exact transpose_ix2_apply _ _ d e
theorem blk5_apply (c : Dev nD) (t : Fin cfg0.N) (d e : Fin 16) :
    (iblk m c 5 t : Vec Ideal S16x16 .f32) (ix2 d e) = (m ((c : Thread nD τ).loc main_arg5) : S16x16.Idx → EReal) (ix2 e d) := by
  obtain ⟨-, -, -, -, -, -, -, -, -, -, -, -, -, -, e0, e1, -⟩ := idx_facts t
  have hemb : ((cfg0.win 5).blk t).view.emb (ix2 d e) = ix2 d e := funext fun a => Fin.ext (by
    match a with
    | ⟨0, _⟩ => show win0_5.index t (0 : Fin 2) * 16 + 1 * d.val = d.val; omega
    | ⟨1, _⟩ => show win0_5.index t (1 : Fin 2) * 16 + 1 * e.val = e.val; omega)
  unfold iblk
  rw [View.read_apply]
  show (V m c main_v2 : S16x16.Idx → EReal) (((cfg0.win 5).blk t).view.emb (ix2 d e)) = _
  rw [hemb, V_wv]
  exact transpose_ix2_apply _ _ d e

/-- A bias window's one block is the whole row: at `(0, e)` the given bias at `e`. -/
theorem blk2_apply (c : Dev nD) (t : Fin cfg0.N) (e : Fin 16) :
    (iblk m c 2 t : Vec Ideal S1x16 .f32) (ix2 (0 : Fin 1) e) = (m ((c : Thread nD τ).loc main_arg2) : S16.Idx → EReal) (ix1 e) := by
  obtain ⟨-, -, -, -, -, -, -, -, e0, e1, -⟩ := idx_facts t
  have hemb : ((cfg0.win 2).blk t).view.emb (ix2 (0 : Fin 1) e) = ix2 (0 : Fin 1) e := funext fun a => Fin.ext (by
    match a with
    | ⟨0, _⟩ => show win0_2.index t (0 : Fin 2) * 1 + 1 * 0 = 0; omega
    | ⟨1, _⟩ => show win0_2.index t (1 : Fin 2) * 16 + 1 * e.val = e.val; omega)
  unfold iblk
  rw [View.read_apply]
  show (V m c main_v3 : S1x16.Idx → EReal) (((cfg0.win 2).blk t).view.emb (ix2 (0 : Fin 1) e)) = _
  rw [hemb, V_bq]
  exact shapeCast_a_1a_apply _ _ (0 : Fin 1) e
theorem blk4_apply (c : Dev nD) (t : Fin cfg0.N) (e : Fin 16) :
    (iblk m c 4 t : Vec Ideal S1x16 .f32) (ix2 (0 : Fin 1) e) = (m ((c : Thread nD τ).loc main_arg4) : S16.Idx → EReal) (ix1 e) := by
  obtain ⟨-, -, -, -, -, -, -, -, -, -, -, -, e0, e1, -⟩ := idx_facts t
  have hemb : ((cfg0.win 4).blk t).view.emb (ix2 (0 : Fin 1) e) = ix2 (0 : Fin 1) e := funext fun a => Fin.ext (by
    match a with
    | ⟨0, _⟩ => show win0_4.index t (0 : Fin 2) * 1 + 1 * 0 = 0; omega
    | ⟨1, _⟩ => show win0_4.index t (1 : Fin 2) * 16 + 1 * e.val = e.val; omega)
  unfold iblk
  rw [View.read_apply]
  show (V m c main_v4 : S1x16.Idx → EReal) (((cfg0.win 4).blk t).view.emb (ix2 (0 : Fin 1) e)) = _
  rw [hemb, V_bk]
  exact shapeCast_a_1a_apply _ _ (0 : Fin 1) e
theorem blk6_apply (c : Dev nD) (t : Fin cfg0.N) (e : Fin 16) :
    (iblk m c 6 t : Vec Ideal S1x16 .f32) (ix2 (0 : Fin 1) e) = (m ((c : Thread nD τ).loc main_arg6) : S16.Idx → EReal) (ix1 e) := by
  obtain ⟨-, -, -, -, -, -, -, -, -, -, -, -, -, -, -, -, e0, e1⟩ := idx_facts t
  have hemb : ((cfg0.win 6).blk t).view.emb (ix2 (0 : Fin 1) e) = ix2 (0 : Fin 1) e := funext fun a => Fin.ext (by
    match a with
    | ⟨0, _⟩ => show win0_6.index t (0 : Fin 2) * 1 + 1 * 0 = 0; omega
    | ⟨1, _⟩ => show win0_6.index t (1 : Fin 2) * 16 + 1 * e.val = e.val; omega)
  unfold iblk
  rw [View.read_apply]
  show (V m c main_v5 : S1x16.Idx → EReal) (((cfg0.win 6).blk t).view.emb (ix2 (0 : Fin 1) e)) = _
  rw [hemb, V_bv]
  exact shapeCast_a_1a_apply _ _ (0 : Fin 1) e

/-! ## What a point writes back, the cover, and the array -/

/-- What point `t` writes back is block `(t, 0, 0)` of the whole result. -/
theorem flushed_eq (c : Dev nD) (t : Fin cfg0.N) :
    (dats m 0 c).flushed 7 t = ((cfg0.win 7).blk t).view.read (Elt Ideal) (result m c) := by
  obtain ⟨-, -, -, e0, e1, e2, -⟩ := idx_facts t
  rw [Cert.KernelIdeal.Value.flushed7]
  unfold out0_7
  rw [View.canon_unit_zero hz3]
  simp only [View.ld_unit_zero (S := S1x1024x16) hz3, View.ld_unit_zero (S := S16x16) hz2, View.ld_unit_zero (S := S1x16) hz2]
  funext y
  obtain ⟨u, q, d, rfl⟩ : ∃ (u : Fin 1) (q : Fin 1024) (d : Fin 16), y = ix3 u q d := ⟨y 0, y 1, y 2, eq_ix3 y⟩
  have hemb : ((cfg0.win 7).blk t).view.emb (ix3 u q d) = ix3 (batchOf t) q d := funext fun a => Fin.ext (by
    have hu : u.val = 0 := by omega
    match a with
    | ⟨0, _⟩ => show win0_7.index t (0 : Fin 3) * 1 + 1 * u.val = t.val; omega
    | ⟨1, _⟩ => show win0_7.index t (1 : Fin 3) * 1024 + 1 * q.val = q.val; omega
    | ⟨2, _⟩ => show win0_7.index t (2 : Fin 3) * 16 + 1 * d.val = d.val; omega)
  rw [View.read_apply, hemb]
  exact KernelIsSpec.body_at_batch _ _ _ _ _ _ _
    (iblk m c 0 t) (iblk m c 1 t) (iblk m c 2 t) (iblk m c 3 t) (iblk m c 4 t) (iblk m c 5 t) (iblk m c 6 t) (batchOf t)
    (blk0_apply m c t) (blk1_apply m c t) (blk2_apply m c t) (blk3_apply m c t) (blk4_apply m c t) (blk5_apply m c t)
    (blk6_apply m c t) u q d

/-- An index of the result array is in point `t`'s block iff each coordinate is in the block's range on its axis. -/
theorem mem_blk (t : Fin cfg0.N) (i : S32x1024x16.Idx) :
    i ∈ ((cfg0.win 7).blk t).view.set ↔ ∀ a : Fin 3, win0_7.index t a * S1x1024x16.size a ≤ (i a).val ∧ (i a).val < win0_7.index t a * S1x1024x16.size a + S1x1024x16.size a := by
  show i ∈ ((View.whole main_v6).slice (win0_7.rect t)).set ↔ _
  rw [View.set_slice_whole, Rect.mem_set_unit]
  exact Iff.rfl

/-- The 32 blocks tile the result array: index `(b, q, d)` lies in point `b`'s block. -/
theorem cover (i : S32x1024x16.Idx) : ∃ t : Fin cfg0.N, (cfg0.win 7).flush t = true ∧ i ∈ ((cfg0.win 7).blk t).view.set := by
  have h0 : (i 0).val < 32 := (i 0).isLt
  have h1 : (i 1).val < 1024 := (i 1).isLt
  have h2 : (i 2).val < 16 := (i 2).isLt
  refine ⟨⟨(i 0).val, lt_of_lt_of_eq h0 N_0.symm⟩, flush0_7 _, ?_⟩
  obtain ⟨-, -, -, e0, e1, e2, -⟩ := idx_facts ⟨(i 0).val, lt_of_lt_of_eq h0 N_0.symm⟩
  rw [mem_blk]
  intro a
  match a with
  | ⟨0, _⟩ => show win0_7.index _ (0 : Fin 3) * 1 ≤ (i 0).val ∧ (i 0).val < win0_7.index _ (0 : Fin 3) * 1 + 1; rw [e0]; show (i 0).val * 1 ≤ (i 0).val ∧ (i 0).val < (i 0).val * 1 + 1; omega
  | ⟨1, _⟩ => show win0_7.index _ (1 : Fin 3) * 1024 ≤ (i 1).val ∧ (i 1).val < win0_7.index _ (1 : Fin 3) * 1024 + 1024; rw [e1]; omega
  | ⟨2, _⟩ => show win0_7.index _ (2 : Fin 3) * 16 ≤ (i 2).val ∧ (i 2).val < win0_7.index _ (2 : Fin 3) * 16 + 16; rw [e2]; omega

/-- The result array after the run is the specification's whole result. -/
theorem final (c : Dev nD) : (dats m 0 c).arrAt 7 cfg0.N = result m c :=
  (dats m 0 c).arrAt_eq_of_cover 7 (result m c) (fun t _ => flushed_eq m c t) cover

/-- The kernel's run: every weakly fair execution terminates with the result array at the specification of the
    argument arrays, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelValue

end
-- ==== Proof.RefStages.lean ====
/-
  The reference, stage by stage, read at batch `b`, on the extended reals.

  Every stage of the reference is a function of one batch only. With `X` the input `[32, 1024, 16]`, `W` a weight
  matrix `[16, 16]` and `β` a bias `[16]`:
    a projection at `(b, q, e)` is `(∑ d, X (b, q, d) * W (e, d)) + β e`;
    the scores at `(b, q, k)` are `∑ d, Q (b, q, d) * K (b, k, d)`;
    the row maximum, kept as a unit axis and spread back over the row, is at `(b, q, k)` the larger of the word of `-∞`
    and the running maximum of `k' ↦ scores (b, q, k')` started from that word;
    the exponentials are `exp (scores - maximum)`; their row total at `(b, q, k)` is `∑ k', exponential (b, q, k')`
    (the initial value is the zero word); the weights are the quotient; the attended values at `(b, q, d)` are
    `∑ k, weight (b, q, k) * V (b, k, d)`; and the result multiplies by `X (b, q, d)`.
  Each lemma is the stage's read-at-an-index lemma with its index functions evaluated at coordinates.
-/
import proofs.«112975_j60533269070298_1_alg».proof.Proof.Gen.ReferenceIdeal.Read
import proofs.«112975_j60533269070298_1_alg».proof.Proof.LibAxisMax

noncomputable section

namespace Cert.RefStages

open Idealize.ShloMosaic Idealize.ShloMosaic.ValueIdx
open Cert.ReferenceIdeal Cert.ReferenceIdeal.Read Cert.LibAxisMax

/-- The reference's argument arrays at the exact values. -/
abbrev Arr3 := (⟨S32x1024x16, .f32⟩ : BufTy).Contents (Elt Ideal)
abbrev Mat := (⟨S16x16, .f32⟩ : BufTy).Contents (Elt Ideal)
abbrev Row := (⟨S16, .f32⟩ : BufTy).Contents (Elt Ideal)

variable (X : Arr3) (Wq Wk Wv : Mat) (bq bk bv : Row)

/-- The word of `-∞`, as the extended real it denotes. -/
abbrev negInf : EReal := Ideal.ofBits .f32 0xFF800000#32

/-- The query projection at `(b, q, e)`. -/
theorem q_apply (b : Fin 32) (q : Fin 1024) (e : Fin 16) :
    val_main_v3 (F := Ideal) X Wq bq (ix3 b q e) = (∑ d : Fin 16, X (ix3 b q d) * Wq (ix2 e d)) + bq (ix1 e) := by
  rw [val_main_v3_apply, val_main_v0_apply, val_main_v2_apply, val_main_v1_apply]
  refine congrArg₂ (· + ·) (Finset.sum_congr rfl fun d _ => congrArg₂ (· * ·) (congrArg X ?_) (congrArg Wq ?_)) (congrArg bq ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-- The key projection at `(b, k, e)`. -/
theorem k_apply (b : Fin 32) (q : Fin 1024) (e : Fin 16) :
    val_main_v7 (F := Ideal) X Wk bk (ix3 b q e) = (∑ d : Fin 16, X (ix3 b q d) * Wk (ix2 e d)) + bk (ix1 e) := by
  rw [val_main_v7_apply, val_main_v4_apply, val_main_v6_apply, val_main_v5_apply]
  refine congrArg₂ (· + ·) (Finset.sum_congr rfl fun d _ => congrArg₂ (· * ·) (congrArg X ?_) (congrArg Wk ?_)) (congrArg bk ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-- The value projection at `(b, k, e)`. -/
theorem v_apply (b : Fin 32) (q : Fin 1024) (e : Fin 16) :
    val_main_v11 (F := Ideal) X Wv bv (ix3 b q e) = (∑ d : Fin 16, X (ix3 b q d) * Wv (ix2 e d)) + bv (ix1 e) := by
  rw [val_main_v11_apply, val_main_v8_apply, val_main_v10_apply, val_main_v9_apply]
  refine congrArg₂ (· + ·) (Finset.sum_congr rfl fun d _ => congrArg₂ (· * ·) (congrArg X ?_) (congrArg Wv ?_)) (congrArg bv ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-- The scores at `(b, q, k)`: the inner product of query row `q` and key row `k` of batch `b`. -/
theorem scores_apply (b : Fin 32) (q k : Fin 1024) :
    val_main_v12 (F := Ideal) X Wq bq Wk bk (ix3 b q k)
      = ∑ d : Fin 16, val_main_v3 (F := Ideal) X Wq bq (ix3 b q d) * val_main_v7 (F := Ideal) X Wk bk (ix3 b k d) := by
  rw [val_main_v12_apply]
  refine Finset.sum_congr rfl fun d _ => congrArg₂ (· * ·) (congrArg _ ?_) (congrArg _ ?_)
  · exact funext fun a => match a with | ⟨0, _⟩ => rfl | ⟨1, _⟩ => rfl | ⟨2, _⟩ => rfl
  · exact funext fun a => match a with | ⟨0, _⟩ => rfl | ⟨1, _⟩ => rfl | ⟨2, _⟩ => rfl

/-- The row maximum spread back over the row, at `(b, q, k)`. -/
theorem rowmax_apply (b : Fin 32) (q k : Fin 1024) :
    val_main_v17 (F := Ideal) X Wq bq Wk bk (ix3 b q k)
      = max negInf (foldMax negInf fun k' : Fin 1024 => val_main_v12 (F := Ideal) X Wq bq Wk bk (ix3 b q k')) := by
  rw [val_main_v17_apply, val_main_v16_apply, val_main_v15_apply, val_main_v14_apply, val_main_cst_0_apply]
  refine congrArg₂ max rfl ?_
  have hi : idx_main_v16 (idx_main_v17 (ix3 b q k)) = ix2 b q :=
    funext fun a => match a with | ⟨0, _⟩ => rfl | ⟨1, _⟩ => rfl
  rw [hi]
  unfold val_main_v13
  exact host_max_last _ _ _ (by decide) _ b q

/-- The exponentials at `(b, q, k)`. -/
theorem exp_apply (b : Fin 32) (q k : Fin 1024) :
    val_main_v19 (F := Ideal) X Wq bq Wk bk (ix3 b q k)
      = Ideal.exp (val_main_v12 (F := Ideal) X Wq bq Wk bk (ix3 b q k) - val_main_v17 (F := Ideal) X Wq bq Wk bk (ix3 b q k)) := rfl

/-- The row total of the exponentials spread back over the row, at `(b, q, k)`. -/
theorem rowsum_apply (b : Fin 32) (q k : Fin 1024) :
    val_main_v22 (F := Ideal) X Wq bq Wk bk (ix3 b q k)
      = ∑ k' : Fin 1024, val_main_v19 (F := Ideal) X Wq bq Wk bk (ix3 b q k') := by
  rw [val_main_v22_apply, val_main_v21_apply, val_main_v20_apply, val_main_cst_1_apply]
  show Ideal.ofBits .f32 0x00000000#32 + _ = _
  rw [Ideal.ofBits_zero_f32, zero_add]
  refine Finset.sum_congr rfl fun k' _ => congrArg _ ?_
  exact funext fun a => match a with | ⟨0, _⟩ => rfl | ⟨1, _⟩ => rfl | ⟨2, _⟩ => rfl

/-- The attention weights at `(b, q, k)`. -/
theorem weights_apply (b : Fin 32) (q k : Fin 1024) :
    val_main_v23 (F := Ideal) X Wq bq Wk bk (ix3 b q k)
      = Ideal.div (val_main_v19 (F := Ideal) X Wq bq Wk bk (ix3 b q k)) (val_main_v22 (F := Ideal) X Wq bq Wk bk (ix3 b q k)) := rfl

/-- The attended values at `(b, q, d)`. -/
theorem att_apply (b : Fin 32) (q : Fin 1024) (d : Fin 16) :
    val_main_v24 (F := Ideal) X Wq bq Wk bk Wv bv (ix3 b q d)
      = ∑ k : Fin 1024, val_main_v23 (F := Ideal) X Wq bq Wk bk (ix3 b q k) * val_main_v11 (F := Ideal) X Wv bv (ix3 b k d) := by
  rw [val_main_v24_apply]
  refine Finset.sum_congr rfl fun k _ => congrArg₂ (· * ·) (congrArg _ ?_) (congrArg _ ?_)
  · exact funext fun a => match a with | ⟨0, _⟩ => rfl | ⟨1, _⟩ => rfl | ⟨2, _⟩ => rfl
  · exact funext fun a => match a with | ⟨0, _⟩ => rfl | ⟨1, _⟩ => rfl | ⟨2, _⟩ => rfl

/-- The result at `(b, q, d)`: the attended value times the input's entry. -/
theorem out_apply (b : Fin 32) (q : Fin 1024) (d : Fin 16) :
    val_main_v25 (F := Ideal) X Wq bq Wk bk Wv bv (ix3 b q d)
      = val_main_v24 (F := Ideal) X Wq bq Wk bk Wv bv (ix3 b q d) * X (ix3 b q d) := rfl

end Cert.RefStages

end
-- ==== Proof.RefIsSpec.lean ====
/-
  The reference computes the specification.

  Stage by stage at batch `b`: the three projections are `proj` of the batch's slab, the scores `scores` of the
  query and key projections, the spread-back row maximum `rowmax`, the exponentials `expo`, the spread-back row total
  the sum of `expo` along the row, the weights `weights`, the attended values `att`, and the last step the product with the
  slab's entry. Each step substitutes the previous one under a finite sum, a running maximum, or an operation
  applied once per entry; nothing is assumed finite.
-/
import proofs.«112975_j60533269070298_1_alg».proof.Proof.RefStages
import proofs.«112975_j60533269070298_1_alg».proof.Proof.Spec

noncomputable section

namespace Cert.RefIsSpec

open Idealize.ShloMosaic Idealize.ShloMosaic.ValueIdx
open Cert.ReferenceIdeal Cert.ReferenceIdeal.Read Cert.RefStages
open Cert.LibAxisMax (foldMax)

variable (X : Arr3) (Wq Wk Wv : Mat) (bq bk bv : Row)

/-- The reference's result at `(b, q, d)` is the specification's. -/
theorem result_apply (b : Fin 32) (q : Fin 1024) (d : Fin 16) :
    val_main_v25 (F := Ideal) X Wq bq Wk bk Wv bv (ix3 b q d) = Spec.attnAll X Wq bq Wk bk Wv bv (ix3 b q d) := by
  rw [Spec.attnAll_ix3]
  -- the three projections of batch `b`
  have hQ : ∀ (q : Fin 1024) (e : Fin 16), val_main_v3 (F := Ideal) X Wq bq (ix3 b q e)
      = Spec.proj (fun q d => X (ix3 b q d)) (fun e d => Wq (ix2 e d)) (fun e => bq (ix1 e)) q e :=
    fun q e => q_apply X Wq bq b q e
  have hK : ∀ (q : Fin 1024) (e : Fin 16), val_main_v7 (F := Ideal) X Wk bk (ix3 b q e)
      = Spec.proj (fun q d => X (ix3 b q d)) (fun e d => Wk (ix2 e d)) (fun e => bk (ix1 e)) q e :=
    fun q e => k_apply X Wk bk b q e
  have hV : ∀ (q : Fin 1024) (e : Fin 16), val_main_v11 (F := Ideal) X Wv bv (ix3 b q e)
      = Spec.proj (fun q d => X (ix3 b q d)) (fun e d => Wv (ix2 e d)) (fun e => bv (ix1 e)) q e :=
    fun q e => v_apply X Wv bv b q e
  -- the scores
  have hS : ∀ q k : Fin 1024, val_main_v12 (F := Ideal) X Wq bq Wk bk (ix3 b q k)
      = Spec.scores (Spec.proj (fun q d => X (ix3 b q d)) (fun e d => Wq (ix2 e d)) (fun e => bq (ix1 e)))
          (Spec.proj (fun q d => X (ix3 b q d)) (fun e d => Wk (ix2 e d)) (fun e => bk (ix1 e))) q k :=
    fun q k => (scores_apply X Wq Wk bq bk b q k).trans
      (Finset.sum_congr rfl fun d _ => congrArg₂ (· * ·) (hQ q d) (hK k d))
  -- the shift
  have hM : ∀ q k : Fin 1024, val_main_v17 (F := Ideal) X Wq bq Wk bk (ix3 b q k)
      = Spec.rowmax (Spec.scores (Spec.proj (fun q d => X (ix3 b q d)) (fun e d => Wq (ix2 e d)) (fun e => bq (ix1 e)))
          (Spec.proj (fun q d => X (ix3 b q d)) (fun e d => Wk (ix2 e d)) (fun e => bk (ix1 e)))) q :=
    fun q k => (rowmax_apply X Wq Wk bq bk b q k).trans
      (congrArg (max negInf) (congrArg (foldMax negInf) (funext fun k' => hS q k')))
  -- the exponentials
  have hE : ∀ q k : Fin 1024, val_main_v19 (F := Ideal) X Wq bq Wk bk (ix3 b q k)
      = Spec.expo (Spec.scores (Spec.proj (fun q d => X (ix3 b q d)) (fun e d => Wq (ix2 e d)) (fun e => bq (ix1 e)))
          (Spec.proj (fun q d => X (ix3 b q d)) (fun e d => Wk (ix2 e d)) (fun e => bk (ix1 e)))) q k :=
    fun q k => (exp_apply X Wq Wk bq bk b q k).trans
      (congrArg₂ (fun a s => Ideal.exp (a - s)) (hS q k) (hM q k))
  -- the weights
  have hP : ∀ q k : Fin 1024, val_main_v23 (F := Ideal) X Wq bq Wk bk (ix3 b q k)
      = Spec.weights (Spec.expo (Spec.scores (Spec.proj (fun q d => X (ix3 b q d)) (fun e d => Wq (ix2 e d)) (fun e => bq (ix1 e)))
          (Spec.proj (fun q d => X (ix3 b q d)) (fun e d => Wk (ix2 e d)) (fun e => bk (ix1 e))))) q k :=
    fun q k => (weights_apply X Wq Wk bq bk b q k).trans
      (congrArg₂ Ideal.div (hE q k)
        ((rowsum_apply X Wq Wk bq bk b q k).trans (Finset.sum_congr rfl fun k' _ => hE q k')))
  -- the attended values and the product with the slab
  refine (out_apply X Wq Wk Wv bq bk bv b q d).trans (congrArg (· * X (ix3 b q d)) ?_)
  exact (att_apply X Wq Wk Wv bq bk bv b q d).trans
    (Finset.sum_congr rfl fun k _ => congrArg₂ (· * ·) (hP q k) (hV k d))

/-- The reference's result array is the specification's. -/
theorem result_eq : val_main_v25 (F := Ideal) X Wq bq Wk bk Wv bv = Spec.attnAll X Wq bq Wk bk Wv bv := by
  funext i
  obtain ⟨b, q, d, rfl⟩ : ∃ (b : Fin 32) (q : Fin 1024) (d : Fin 16), i = ix3 b q d := ⟨i 0, i 1, i 2, eq_ix3 i⟩
  exact result_apply X Wq Wk Wv bq bk bv b q d

end Cert.RefIsSpec

end
-- ==== Proof.lean ====
/-
  Single-head attention over 32 batches of 1024 tokens with 16 features, multiplied entry by entry by its input: the kernel against
  the jnp reference, on the extended reals.

  Both programs compute, for each batch `b` with slab `x = X (b, ·, ·)`,
      Q = x · Wqᵀ + bq,   K = x · Wkᵀ + bk,   V = x · Wvᵀ + bv,
      S (q, k) = ∑ d, Q (q, d) * K (k, d),
      P (q, k) = exp (S (q, k) - max_k S (q, ·)) / ∑ k', exp (S (q, k') - max_k S (q, ·)),
      out (q, d) = (∑ k, P (q, k) * V (k, d)) * x (q, d),
  with the row maximum taken from the word of `-∞` and the row total from the zero word in both. The kernel runs one
  grid point per batch on that batch's slab block, on weights a host transpose has already turned and on biases laid
  out as rows; at the exact values its changes of float format are the identity and each of its matrix products into
  a zero accumulator is the finite sum the reference's contraction is. So the two are the same composition of the
  same exact operations, entry by entry, and neither finiteness of the inputs nor any algebraic law beyond reading
  each operation at an index is used: the precondition is never opened.

  The kernel's value: what each grid point writes back is its block of the specification's whole result, the 32
  blocks tile the result array, so the array ends holding the specification of the argument arrays. The reference's
  value: its composed stages, read one operation at a time at batch `b`, are the same specification. The ideal pass
  rewrote nothing, so the idealization claim is trivial; the three frames are the generated runs.
-/
import proofs.«112975_j60533269070298_1_alg».proof.Defs
import proofs.«112975_j60533269070298_1_alg».proof.Proof.Gen.Kernel
import proofs.«112975_j60533269070298_1_alg».proof.Proof.Gen.Kernel.Skeleton
import proofs.«112975_j60533269070298_1_alg».proof.Proof.Gen.Kernel.Launch
import proofs.«112975_j60533269070298_1_alg».proof.Proof.Gen.Kernel.Points
import proofs.«112975_j60533269070298_1_alg».proof.Proof.Gen.Kernel.Frame
import proofs.«112975_j60533269070298_1_alg».proof.Proof.Gen.KernelIdeal
import proofs.«112975_j60533269070298_1_alg».proof.Proof.Gen.KernelIdeal.Skeleton
import proofs.«112975_j60533269070298_1_alg».proof.Proof.Gen.KernelIdeal.Launch
import proofs.«112975_j60533269070298_1_alg».proof.Proof.Gen.KernelIdeal.Points
import proofs.«112975_j60533269070298_1_alg».proof.Proof.Gen.KernelIdeal.Frame
import proofs.«112975_j60533269070298_1_alg».proof.Proof.Gen.ReferenceIdeal
import proofs.«112975_j60533269070298_1_alg».proof.Proof.Gen.Pre_finite_inputs
import proofs.«112975_j60533269070298_1_alg».proof.Proof.Gen.KernelIdeal.Value
import proofs.«112975_j60533269070298_1_alg».proof.Proof.Gen.ReferenceIdeal.Run
import proofs.«112975_j60533269070298_1_alg».proof.Proof.Gen.ReferenceIdeal.Read
import proofs.«112975_j60533269070298_1_alg».proof.Proof.KernelValue
import proofs.«112975_j60533269070298_1_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the specification's whole result of those
    arguments: the kernel's array by its blocks, the reference's by its stages. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefIsSpec.result_eq]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
